-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x4 : Shape := ⟨2, ![131072, 4]⟩
abbrev S131072x64 : Shape := ⟨2, ![131072, 64]⟩
abbrev S256x4 : Shape := ⟨2, ![256, 4]⟩
abbrev S256x64 : Shape := ⟨2, ![256, 64]⟩
abbrev S_ : Shape := ⟨0, ![]⟩
abbrev S131072x3 : Shape := ⟨2, ![131072, 3]⟩
abbrev S256x3 : Shape := ⟨2, ![256, 3]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  slices_S131072x4_S131072x3_0_1 : S131072x4.Slices ![0, 1] S131072x3
  bcast_S_S131072x3 : S_.BroadcastsInDim S131072x3 (![] : Fin 0 → Fin S131072x3.rank)
  reducesTo_S131072x3_S_d0_1 : S131072x3.ReducesTo [0, 1] S_
  slices_S256x4_S256x3_0_1 : S256x4.Slices ![0, 1] S256x3
  bcast_S_S256x3 : S_.BroadcastsInDim S256x3 (![] : Fin 0 → Fin S256x3.rank)
  reducesTo_S256x3_S_d0_1 : S256x3.ReducesTo [0, 1] S_

variable [Facts]

def fn_part1 {F : FTy → Type} [FloatOps F] (main_arg2 : IVec S256x4 32) (main_v8 : IVec S_ 1) (main_v16 : IVec S_ 1) : IVec S_ 1 :=
  let main_v17 : IVec S_ 1 := andi main_v8 main_v16
  let main_v18 : IVec S256x3 32 := (extractStridedSlice S256x3 ![0, 1] · slices_S256x4_S256x3_0_1) main_arg2
  let main_c_5 : IVec S_ 32 := constantI S_ 32 0#32
  let main_v19 : IVec S256x3 32 := broadcastInDim S256x3 ![] bcast_S_S256x3 main_c_5
  let main_v20 : IVec S256x3 1 := cmpi .sge main_v18 main_v19
  let main_v21 : IVec S256x3 32 := (extractStridedSlice S256x3 ![0, 1] · slices_S256x4_S256x3_0_1) main_arg2
  let main_c_6 : IVec S_ 32 := constantI S_ 32 128#32
  let main_v22 : IVec S256x3 32 := broadcastInDim S256x3 ![] bcast_S_S256x3 main_c_6
  let main_v23 : IVec S256x3 1 := cmpi .slt main_v21 main_v22
  let main_v24 : IVec S256x3 1 := andi main_v20 main_v23
  let main_c_7 : IVec S_ 1 := constantI S_ 1 1#1
  let main_v25 : IVec S_ 1 := (fun x v => Host.reduce IntOp.andi x v reducesTo_S256x3_S_d0_1 h_S_) main_v24 main_c_7
  let main_v26 : IVec S_ 1 := andi main_v17 main_v25
  main_v26

def fn {F : FTy → Type} [FloatOps F] (main_arg0 : IVec S131072x4 32) (main_arg1 : FVec F S131072x64 .f32) (main_arg2 : IVec S256x4 32) (main_arg3 : FVec F S256x64 .f32) : IVec S_ 1 :=
  let main_v0 : FVec F S131072x64 .f32 := Host.absf main_arg1
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : IVec S131072x3 32 := (extractStridedSlice S131072x3 ![0, 1] · slices_S131072x4_S131072x3_0_1) main_arg0
  let main_c_2 : IVec S_ 32 := constantI S_ 32 0#32
  let main_v10 : IVec S131072x3 32 := broadcastInDim S131072x3 ![] bcast_S_S131072x3 main_c_2
  let main_v11 : IVec S131072x3 1 := cmpi .sge main_v9 main_v10
  let main_v12 : IVec S131072x3 32 := (extractStridedSlice S131072x3 ![0, 1] · slices_S131072x4_S131072x3_0_1) main_arg0
  let main_c_3 : IVec S_ 32 := constantI S_ 32 128#32
  let main_v13 : IVec S131072x3 32 := broadcastInDim S131072x3 ![] bcast_S_S131072x3 main_c_3
  let main_v14 : IVec S131072x3 1 := cmpi .slt main_v12 main_v13
  let main_v15 : IVec S131072x3 1 := andi main_v11 main_v14
  let main_c_4 : IVec S_ 1 := constantI S_ 1 1#1
  let main_v16 : IVec S_ 1 := (fun x v => Host.reduce IntOp.andi x v reducesTo_S131072x3_S_d0_1 h_S_) main_v15 main_c_4
  fn_part1 (F := F) main_arg2 main_v8 main_v16
-- ==== Kernel.lean ====
abbrev S131072x4 : Shape := ⟨2, ![131072, 4]⟩
abbrev S131072x64 : Shape := ⟨2, ![131072, 64]⟩
abbrev S256x4 : Shape := ⟨2, ![256, 4]⟩
abbrev S256x64 : Shape := ⟨2, ![256, 64]⟩
abbrev S4x256 : Shape := ⟨2, ![4, 256]⟩
abbrev S64x256 : Shape := ⟨2, ![64, 256]⟩
abbrev S131072x256 : Shape := ⟨2, ![131072, 256]⟩
abbrev S4096x4 : Shape := ⟨2, ![4096, 4]⟩
abbrev S4096x64 : Shape := ⟨2, ![4096, 64]⟩
abbrev S4096x256 : Shape := ⟨2, ![4096, 256]⟩
abbrev S4096x1 : Shape := ⟨2, ![4096, 1]⟩
abbrev S1x256 : Shape := ⟨2, ![1, 256]⟩
abbrev S4096x3 : Shape := ⟨2, ![4096, 3]⟩
abbrev S3x256 : Shape := ⟨2, ![3, 256]⟩
abbrev S4096 : Shape := ⟨1, ![4096]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S131072x4, .i32⟩
  | .hbm, ⟨1, _⟩ => ⟨S131072x64, .f32⟩
  | .hbm, ⟨2, _⟩ => ⟨S256x4, .i32⟩
  | .hbm, ⟨3, _⟩ => ⟨S256x64, .f32⟩
  | .hbm, ⟨4, _⟩ => ⟨S4x256, .i32⟩
  | .hbm, ⟨5, _⟩ => ⟨S64x256, .f32⟩
  | .hbm, ⟨6, _⟩ => ⟨S131072x256, .f32⟩
  | .local _ .vmem, ⟨0, _⟩ => ⟨S4096x4, .i32⟩
  | .local _ .vmem, ⟨1, _⟩ => ⟨S4096x4, .i32⟩
  | .local _ .vmem, ⟨2, _⟩ => ⟨S4096x64, .f32⟩
  | .local _ .vmem, ⟨3, _⟩ => ⟨S4096x64, .f32⟩
  | .local _ .vmem, ⟨4, _⟩ => ⟨S4x256, .i32⟩
  | .local _ .vmem, ⟨5, _⟩ => ⟨S64x256, .f32⟩
  | .local _ .vmem, ⟨6, _⟩ => ⟨S4096x256, .f32⟩
  | .local _ .vmem, ⟨7, _⟩ => ⟨S4096x256, .f32⟩
  | _, _ => ⟨S131072x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x4_S4x256_1_0 : S256x4.Transposes [1, 0] S4x256
  transposes_S256x64_S64x256_1_0 : S256x64.Transposes [1, 0] S64x256
  inb_S4096x4_S4096x1_0_0 : ∀ a, (![0, 0] : Fin 2 → Nat) a + S4096x1.size a ≤ S4096x4.size a
  h_S4096x1 : 0 < S4096x1.numel
  inb_S4x256_S1x256_0_0 : ∀ a, (![0, 0] : Fin 2 → Nat) a + S1x256.size a ≤ S4x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  inb_S4096x4_S4096x3_0_1 : ∀ a, (![0, 1] : Fin 2 → Nat) a + S4096x3.size a ≤ S4096x4.size a
  h_S4096x3 : 0 < S4096x3.numel
  inb_S4x256_S3x256_1_0 : ∀ a, (![1, 0] : Fin 2 → Nat) a + S3x256.size a ≤ S4x256.size a
  h_S3x256 : 0 < S3x256.numel
  shapeCasts_S3x256_S3x256 : S3x256.ShapeCasts S3x256
  reduces_S4096x3_S4096 : S4096x3.Reduces [1] S4096
  shapeCasts_S4096_S4096x1 : S4096.ShapeCasts S4096x1
  reduces_S3x256_S256 : S3x256.Reduces [0] S256
  shapeCasts_S256_S1x256 : S256.ShapeCasts S1x256
  reduces_S4096x256_S4096 : S4096x256.Reduces [1] S4096
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x256_S4096x256_0_0 : ∀ a, (![0, 0] : Fin 2 → Nat) a + S4096x256.size a ≤ S4096x256.size a
  h_S4096x256 : 0 < S4096x256.numel
  dot_S4096x3_S3x256_S4096x256_1_0_0_1_n_n_wf : DotDims.WF S4096x3 S3x256 S4096x256 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S131072x4.size a
  hwx0_0 : ∀ i : grid0.Coords, EltTy.bits .i32 = 32 ∨ (Rect.block (s := S131072x4) S4096x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .i32 = 32 ∨ (Rect.block (s := S4x256) S4x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)

variable [Facts₀]

def dot_S4096x3_S3x256_S4096x256_1_0_0_1_n_n : DotDims S4096x3 S3x256 S4096x256 where
  lhsContracting := [1]
  rhsContracting := [0]
  lhsNonContracting := [0]
  rhsNonContracting := [1]
  lhsBatch := []
  rhsBatch := []
  wf := dot_S4096x3_S3x256_S4096x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x4 : Shape := ⟨2, ![131072, 4]⟩
abbrev S131072x64 : Shape := ⟨2, ![131072, 64]⟩
abbrev S256x4 : Shape := ⟨2, ![256, 4]⟩
abbrev S256x64 : Shape := ⟨2, ![256, 64]⟩
abbrev S131072x1 : Shape := ⟨2, ![131072, 1]⟩
abbrev S131072 : Shape := ⟨1, ![131072]⟩
abbrev S256x1 : Shape := ⟨2, ![256, 1]⟩
abbrev S256 : Shape := ⟨1, ![256]⟩
abbrev S1x256 : Shape := ⟨2, ![1, 256]⟩
abbrev S131072x256 : Shape := ⟨2, ![131072, 256]⟩
abbrev S131072x3 : Shape := ⟨2, ![131072, 3]⟩
abbrev S131072x1x3 : Shape := ⟨3, ![131072, 1, 3]⟩
abbrev S256x3 : Shape := ⟨2, ![256, 3]⟩
abbrev S1x256x3 : Shape := ⟨3, ![1, 256, 3]⟩
abbrev S131072x256x3 : Shape := ⟨3, ![131072, 256, 3]⟩
abbrev S_ : Shape := ⟨0, ![]⟩
abbrev S64x256 : Shape := ⟨2, ![64, 256]⟩

abbrev nBuf : Space → Nat
  | .hbm => 62
  | .vmem => 0
  | .smem => 0
  | _ => 0

abbrev bufTy : (tb : Table) → Fin (tcTables nBuf tb) → BufTy
  | .hbm, ⟨0, _⟩ => ⟨S131072x4, .i32⟩
  | .hbm, ⟨1, _⟩ => ⟨S131072x64, .f32⟩
  | .hbm, ⟨2, _⟩ => ⟨S256x4, .i32⟩
  | .hbm, ⟨3, _⟩ => ⟨S256x64, .f32⟩
  | .hbm, ⟨4, _⟩ => ⟨S131072x1, .i32⟩
  | .hbm, ⟨5, _⟩ => ⟨S131072, .i32⟩
  | .hbm, ⟨6, _⟩ => ⟨S131072x1, .i32⟩
  | .hbm, ⟨7, _⟩ => ⟨S256x1, .i32⟩
  | .hbm, ⟨8, _⟩ => ⟨S256, .i32⟩
  | .hbm, ⟨9, _⟩ => ⟨S1x256, .i32⟩
  | .hbm, ⟨10, _⟩ => ⟨S131072x256, .i32⟩
  | .hbm, ⟨11, _⟩ => ⟨S131072x256, .i32⟩
  | .hbm, ⟨12, _⟩ => ⟨S131072x256, .i1⟩
  | .hbm, ⟨13, _⟩ => ⟨S131072x3, .i32⟩
  | .hbm, ⟨14, _⟩ => ⟨S131072x1x3, .i32⟩
  | .hbm, ⟨15, _⟩ => ⟨S256x3, .i32⟩
  | .hbm, ⟨16, _⟩ => ⟨S1x256x3, .i32⟩
  | .hbm, ⟨17, _⟩ => ⟨S131072x256x3, .i32⟩
  | .hbm, ⟨18, _⟩ => ⟨S131072x256x3, .i32⟩
  | .hbm, ⟨19, _⟩ => ⟨S131072x256x3, .i32⟩
  | .hbm, ⟨20, _⟩ => ⟨S131072x256x3, .f32⟩
  | .hbm, ⟨21, _⟩ => ⟨S131072x256x3, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S_, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S131072x1, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072, .f32⟩
  | .hbm, ⟨44, _⟩ => ⟨S131072x1, .f32⟩
  | .hbm, ⟨45, _⟩ => ⟨S131072x256, .f32⟩
  | .hbm, ⟨46, _⟩ => ⟨S131072x256, .f32⟩
  | .hbm, ⟨47, _⟩ => ⟨S64x256, .f32⟩
  | .hbm, ⟨48, _⟩ => ⟨S131072x256, .f32⟩
  | .hbm, ⟨49, _⟩ => ⟨S131072x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S131072x256, .f32⟩
  | .hbm, ⟨54, _⟩ => ⟨S131072x256, .f32⟩
  | .hbm, ⟨55, _⟩ => ⟨S_, .f32⟩
  | .hbm, ⟨56, _⟩ => ⟨S131072x256, .f32⟩
  | .hbm, ⟨57, _⟩ => ⟨S131072x256, .f32⟩
  | .hbm, ⟨58, _⟩ => ⟨S_, .f32⟩
  | .hbm, ⟨59, _⟩ => ⟨S_, .f32⟩
  | .hbm, ⟨60, _⟩ => ⟨S131072x256, .f32⟩
  | .hbm, ⟨61, _⟩ => ⟨S131072x256, .f32⟩
  | _, _ => ⟨S131072x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v38 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  slices_S131072x4_S131072x1_0_0 : S131072x4.Slices ![0, 0] S131072x1
  shapeCasts_S131072x1_S131072 : S131072x1.ShapeCasts S131072
  bcast_S131072_S131072x1_0 : S131072.BroadcastsInDim S131072x1 (![0] : Fin 1 → Fin S131072x1.rank)
  slices_S256x4_S256x1_0_0 : S256x4.Slices ![0, 0] S256x1
  shapeCasts_S256x1_S256 : S256x1.ShapeCasts S256
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  slices_S131072x4_S131072x3_0_1 : S131072x4.Slices ![0, 1] S131072x3
  bcast_S131072x3_S131072x1x3_0_2 : S131072x3.BroadcastsInDim S131072x1x3 (![0, 2] : Fin 2 → Fin S131072x1x3.rank)
  slices_S256x4_S256x3_0_1 : S256x4.Slices ![0, 1] S256x3
  bcast_S256x3_S1x256x3_1_2 : S256x3.BroadcastsInDim S1x256x3 (![1, 2] : Fin 2 → Fin S1x256x3.rank)
  bcast_S131072x1x3_S131072x256x3_0_1_2 : S131072x1x3.BroadcastsInDim S131072x256x3 (![0, 1, 2] : Fin 3 → Fin S131072x256x3.rank)
  bcast_S1x256x3_S131072x256x3_0_1_2 : S1x256x3.BroadcastsInDim S131072x256x3 (![0, 1, 2] : Fin 3 → Fin S131072x256x3.rank)
  reducesTo_S131072x256x3_S131072x256_d2 : S131072x256x3.ReducesTo [2] S131072x256
  h_S_ : 0 < S_.numel
  bcast_S_S131072x256 : S_.BroadcastsInDim S131072x256 (![] : Fin 0 → Fin S131072x256.rank)
  reducesTo_S131072x256_S131072_d1 : S131072x256.ReducesTo [1] S131072
  bcast_S_S131072 : S_.BroadcastsInDim S131072 (![] : Fin 0 → Fin S131072.rank)
  transposes_S256x64_S64x256_1_0 : S256x64.Transposes [1, 0] S64x256
  dot_S131072x64_S64x256_S131072x256_1_0_0_1_n_n_wf : DotDims.WF S131072x64 S64x256 S131072x256 [1] [0] [0] [1] [] []

variable [Facts₀]

def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf

class Facts : Prop extends Facts₀ where

variable [Facts]
-- ==== Proof.Literals.lean ====
/-
  The float constants the two programs spell, as the extended reals their words denote: zero, two, the two
  infinities, and the two words that stand for one tenth (the floor under every distance) and for ten to the
  thirtieth (what the kernel writes over a distance it masks out). Of the last two only their order matters:
  both are real numbers, the floor is below the fill, and the fill is above a thousand — far above any distance
  between voxel coordinates.
-/
import Idealize.ShloMosaic.PureOps.Ideal

noncomputable section

namespace Cert.SparseAttn.Lit

open Idealize.ShloMosaic

/-- The word of `+0.0` denotes `0`. -/
theorem zero : Ideal.ofBits .f32 0x00000000#32 = 0 := by
  simp [Ideal.ofBits, Ideal.ieee]

/-- The word of `2.0` denotes the real `2`. -/
theorem two : Ideal.ofBits .f32 0x40000000#32 = ((2 : ℝ) : EReal) := by
  simp [Ideal.ofBits, Ideal.ieee, -EReal.coe_mul]; norm_num

/-- The word `0x7F800000` denotes `+∞`. -/
theorem posInf : Ideal.ofBits .f32 0x7F800000#32 = ⊤ := by
  simp [Ideal.ofBits, Ideal.ieee]

/-- The word `0xFF800000` denotes `-∞`. -/
theorem negInf : Ideal.ofBits .f32 0xFF800000#32 = ⊥ := by
  simp [Ideal.ofBits, Ideal.ieee]

/-- The floor under a distance: the real the word of `0.1` denotes. -/
def tenth : ℝ := 13421773 * (2 : ℝ) ^ (-27 : Int)

/-- The fill over a masked distance: the real the word of `1e30` denotes. -/
def fill : ℝ := 13234890 * (2 : ℝ) ^ (76 : Int)

theorem tenth_eq : Ideal.ofBits .f32 0x3DCCCCCD#32 = ((tenth : ℝ) : EReal) := by
  simp [Ideal.ofBits, Ideal.ieee, tenth, -EReal.coe_mul]

theorem fill_eq : Ideal.ofBits .f32 0x7149F2CA#32 = ((fill : ℝ) : EReal) := by
  simp [Ideal.ofBits, Ideal.ieee, fill, -EReal.coe_mul]

theorem tenth_le_fill : tenth ≤ fill := by
  unfold tenth fill; norm_num

theorem thousand_le_fill : (1000 : ℝ) ≤ fill := by
  unfold fill; norm_num

end Cert.SparseAttn.Lit

end
-- ==== Proof.RowLaw.lean ====
/-
  One cluster against all the centroids: what one row of the result holds, written the way each program computes it,
  and the law that the two arrangements are one function when the voxel coordinates lie in `[0, 128)`.

  A row is given by `s j` (is centroid `j` in the cluster's batch: one bit), `d j` (the distance to centroid `j`,
  never below one tenth) and `raw j` (the inner product of the two feature vectors).

  * The kernel takes the least distance `μ` over the batch by writing `1e30` over the other centroids and folding
    `min` from `+∞`; it weights centroid `j` of the batch by `exp (μ - d j)` and the others by `0`, and divides by the sum.
  * The reference negates the distances, writes `-∞` over the other centroids, folds `max` from `-∞` to get `M`,
    weights every centroid by `exp (logit j - M)` and divides by the sum.

  When the batch is not empty and every distance is a real number at most `1e30`, `μ` is attained inside the batch,
  `M = -μ`, the weights agree one by one (`exp (-∞) = 0` outside the batch), hence so do the sums and the quotients.
  When it is empty the entry is outside the batch, and both programs write `-∞` there whatever the weights were.

  The distances agree because, for integers `a, b` in `[0, 128)`, the 32-bit difference `a - b` does not wrap, and
  `Σ a² - 2 Σ a b + Σ b² = Σ (a - b)² ≥ 0`, so clamping the expanded form at zero changes nothing.
-/
import Idealize.ShloMosaic.PureOps.Ideal
import Idealize.ShloMosaic.Lib.ValueIdx
import proofs.«179808_j82454782149366_2_alg».proof.Proof.Literals

noncomputable section

namespace Cert.SparseAttn.Row

open Idealize.ShloMosaic Idealize.ShloMosaic.ValueIdx

variable {ι : Type} [Fintype ι]

/-! ## The kernel's arrangement of a row -/

/-- A distance, or the fill `1e30` outside the batch. -/
def kMasked (s : ι → BitVec 1) (d : ι → EReal) (j : ι) : EReal :=
  Scalar.select (s j) (d j) (Ideal.ofBits .f32 0x7149F2CA#32)

/-- The least masked distance, folded from `+∞`. -/
def kMin (s : ι → BitVec 1) (d : ι → EReal) : EReal :=
  (Finset.univ : Finset ι).fold min (Ideal.ofBits .f32 0x7F800000#32) (kMasked s d)

/-- The kernel's weight of centroid `j` before normalisation. -/
def kWeight (s : ι → BitVec 1) (d : ι → EReal) (j : ι) : EReal :=
  Scalar.select (s j) (Ideal.exp (kMin s d - d j)) (Ideal.ofBits .f32 0x00000000#32)

/-- The kernel's entry `j` of the row. -/
def kOut (s : ι → BitVec 1) (d raw : ι → EReal) (j : ι) : EReal :=
  Scalar.select (s j)
    (min (Ideal.ofBits .f32 0x41200000#32) (max (Ideal.ofBits .f32 0xC1200000#32)
      (raw j * Ideal.div (kWeight s d j) (∑ j', kWeight s d j'))))
    (Ideal.ofBits .f32 0xFF800000#32)

/-! ## The reference's arrangement of a row -/

/-- A negated distance, or `-∞` outside the batch. -/
def rLogit (s : ι → BitVec 1) (d : ι → EReal) (j : ι) : EReal :=
  Scalar.select (s j) (-(d j)) (Ideal.ofBits .f32 0xFF800000#32)

/-- The greatest logit, folded from `-∞` (and once more compared with `-∞`). -/
def rMax (s : ι → BitVec 1) (d : ι → EReal) : EReal :=
  max (Ideal.ofBits .f32 0xFF800000#32)
    ((Finset.univ : Finset ι).fold max (Ideal.ofBits .f32 0xFF800000#32) (rLogit s d))

/-- The reference's weight of centroid `j` before normalisation. -/
def rExp (s : ι → BitVec 1) (d : ι → EReal) (j : ι) : EReal :=
  Ideal.exp (rLogit s d j - rMax s d)

/-- The reference's entry `j` of the row. -/
def rOut (s : ι → BitVec 1) (d raw : ι → EReal) (j : ι) : EReal :=
  Scalar.select (s j)
    (min (Ideal.ofBits .f32 0x41200000#32) (max (Ideal.ofBits .f32 0xC1200000#32)
      (raw j * Ideal.div (rExp s d j) (Ideal.ofBits .f32 0x00000000#32 + ∑ j', rExp s d j'))))
    (Ideal.ofBits .f32 0xFF800000#32)

/-! ## The two rows are one -/

/-- With a centroid `j` in the batch and real distances at most the fill, the kernel's least masked distance is a
    real `μ` and the reference's greatest logit is `-μ`. -/
theorem min_max (s : ι → BitVec 1) (d : ι → EReal) (hd : ∀ j, ∃ r : ℝ, d j = (r : EReal) ∧ r ≤ Lit.fill)
    (j : ι) (hj : s j = 1#1) : ∃ μ : ℝ, kMin s d = (μ : EReal) ∧ rMax s d = ((-μ : ℝ) : EReal) := by
  classical
  have hle : kMin s d ≤ d j := by
    unfold kMin
    rw [Finset.fold_min_le]
    exact Or.inr ⟨j, Finset.mem_univ j, by unfold kMasked; rw [hj, select_one]⟩
  have hbot : ⊥ < kMin s d := by
    unfold kMin
    rw [Finset.lt_fold_min]
    refine ⟨by rw [Lit.posInf]; exact bot_lt_top, fun j' _ => ?_⟩
    unfold kMasked
    by_cases h' : s j' = 1#1
    · rw [h', select_one]; obtain ⟨r, hr, _⟩ := hd j'; rw [hr]; exact EReal.bot_lt_coe r
    · rw [eq_zero_of_ne_one h', select_zero, Lit.fill_eq]; exact EReal.bot_lt_coe _
  obtain ⟨rj, hrj, _⟩ := hd j
  have htop : kMin s d < ⊤ := lt_of_le_of_lt hle (by rw [hrj]; exact EReal.coe_lt_top rj)
  refine ⟨(kMin s d).toReal, (EReal.coe_toReal htop.ne hbot.ne').symm, ?_⟩
  rw [EReal.coe_neg, EReal.coe_toReal htop.ne hbot.ne']
  unfold rMax
  rw [Lit.negInf, max_eq_right bot_le]
  apply le_antisymm
  · rw [Finset.fold_max_le]
    refine ⟨bot_le, fun j' _ => ?_⟩
    unfold rLogit
    by_cases h' : s j' = 1#1
    · rw [h', select_one, EReal.neg_le_neg_iff]
      unfold kMin
      rw [Finset.fold_min_le]
      exact Or.inr ⟨j', Finset.mem_univ _, by unfold kMasked; rw [h', select_one]⟩
    · rw [eq_zero_of_ne_one h', select_zero, Lit.negInf]; exact bot_le
  · rw [Finset.le_fold_max]
    right
    obtain ⟨j₀, hj₀, hmin⟩ := (Finset.univ.filter fun j' => s j' = 1#1).exists_min_image d
      ⟨j, Finset.mem_filter.mpr ⟨Finset.mem_univ _, hj⟩⟩
    have hs₀ : s j₀ = 1#1 := (Finset.mem_filter.mp hj₀).2
    refine ⟨j₀, Finset.mem_univ _, ?_⟩
    unfold rLogit
    rw [hs₀, select_one, EReal.neg_le_neg_iff]
    unfold kMin
    rw [Finset.le_fold_min]
    refine ⟨by rw [Lit.posInf]; exact le_top, fun j' _ => ?_⟩
    unfold kMasked
    by_cases h' : s j' = 1#1
    · rw [h', select_one]; exact hmin j' (Finset.mem_filter.mpr ⟨Finset.mem_univ _, h'⟩)
    · rw [eq_zero_of_ne_one h', select_zero, Lit.fill_eq]
      obtain ⟨r, hr, hrf⟩ := hd j₀
      rw [hr]; exact EReal.coe_le_coe_iff.mpr hrf

/-- The kernel's row is the reference's row, entry by entry. -/
theorem out_eq (s : ι → BitVec 1) (d raw : ι → EReal) (hd : ∀ j, ∃ r : ℝ, d j = (r : EReal) ∧ r ≤ Lit.fill) :
    kOut s d raw = rOut s d raw := by
  funext j
  unfold kOut rOut
  by_cases hj : s j = 1#1
  · obtain ⟨μ, hμ, hM⟩ := min_max s d hd j hj
    have hg : ∀ j', kWeight s d j' = rExp s d j' := by
      intro j'
      unfold kWeight rExp rLogit
      by_cases h' : s j' = 1#1
      · obtain ⟨r, hr, _⟩ := hd j'
        rw [h', select_one, select_one, hμ, hM, hr, ← EReal.coe_neg, ← EReal.coe_sub, ← EReal.coe_sub,
          Ideal.exp_coe, Ideal.exp_coe]
        congr 2; ring
      · rw [eq_zero_of_ne_one h', select_zero, select_zero, hM, Lit.zero, Lit.negInf, EReal.bot_sub]
        rfl
    rw [hg j, Finset.sum_congr rfl (fun j' _ => hg j'), Lit.zero, zero_add]
  · rw [eq_zero_of_ne_one hj, select_zero, select_zero]

/-! ## The distance -/

/-- The kernel's distance from the coordinates as reals: the expanded square, clamped at zero, its root, floored. -/
def kDist (x z : Fin 3 → EReal) : EReal :=
  max (Ideal.sqrt (max ((∑ k, x k * x k) - Ideal.ofBits .f32 0x40000000#32 * (∑ k, x k * z k) + ∑ k, z k * z k)
      (Ideal.ofBits .f32 0x00000000#32)))
    (Ideal.ofBits .f32 0x3DCCCCCD#32)

/-- The reference's distance from the coordinates as 32-bit integers: the differences taken in 32 bits, squared, summed
    from zero, the root, floored. -/
def rDist (x z : Fin 3 → BitVec 32) : EReal :=
  max (Ideal.sqrt (Ideal.ofBits .f32 0x00000000#32
      + ∑ k, (((x k - z k).toInt : ℝ) : EReal) * (((x k - z k).toInt : ℝ) : EReal)))
    (Ideal.ofBits .f32 0x3DCCCCCD#32)

/-- A voxel coordinate: a 32-bit integer in `[0, 128)`. -/
def InRange (b : BitVec 32) : Prop := 0 ≤ b.toInt ∧ b.toInt < 128

/-- The 32-bit difference of two voxel coordinates is their difference. -/
theorem toInt_sub_of_inRange {a b : BitVec 32} (ha : InRange a) (hb : InRange b) : (a - b).toInt = a.toInt - b.toInt := by
  obtain ⟨ha0, ha1⟩ := ha
  obtain ⟨hb0, hb1⟩ := hb
  rw [BitVec.toInt_sub, Int.bmod_def]
  norm_num
  split <;> omega

/-- Over voxel coordinates the two distances are one real number, at most the fill. -/
theorem dist_eq (x z : Fin 3 → BitVec 32) (hx : ∀ k, InRange (x k)) (hz : ∀ k, InRange (z k)) :
    kDist (fun k => (((x k).toInt : ℝ) : EReal)) (fun k => (((z k).toInt : ℝ) : EReal)) = rDist x z
    ∧ ∃ r : ℝ, rDist x z = (r : EReal) ∧ r ≤ Lit.fill := by
  have hsub : ∀ k, (((x k - z k).toInt : ℝ)) = ((x k).toInt : ℝ) - ((z k).toInt : ℝ) := fun k => by
    rw [toInt_sub_of_inRange (hx k) (hz k)]; push_cast; ring
  have hb : ∀ k, -127 ≤ ((x k).toInt : ℝ) - ((z k).toInt : ℝ) ∧ ((x k).toInt : ℝ) - ((z k).toInt : ℝ) ≤ 127 := fun k => by
    obtain ⟨h0, h1⟩ := hx k
    obtain ⟨h2, h3⟩ := hz k
    have e0 : (0 : ℝ) ≤ ((x k).toInt : ℝ) := by exact_mod_cast h0
    have e1 : ((x k).toInt : ℝ) ≤ 127 := by exact_mod_cast Int.le_of_lt_add_one (by omega : (x k).toInt < 127 + 1)
    have e2 : (0 : ℝ) ≤ ((z k).toInt : ℝ) := by exact_mod_cast h2
    have e3 : ((z k).toInt : ℝ) ≤ 127 := by exact_mod_cast Int.le_of_lt_add_one (by omega : (z k).toInt < 127 + 1)
    constructor <;> linarith
  set R : ℝ := ∑ k, (((x k).toInt : ℝ) - ((z k).toInt : ℝ)) * (((x k).toInt : ℝ) - ((z k).toInt : ℝ)) with hR
  have hR0 : 0 ≤ R := Finset.sum_nonneg fun k _ => mul_self_nonneg _
  have hR1 : R ≤ 1000 ^ 2 := by
    rw [hR, Fin.sum_univ_three]
    have := hb 0; have := hb 1; have := hb 2
    nlinarith [hb 0, hb 1, hb 2]
  have hk : (∑ k, (((x k).toInt : ℝ) : EReal) * (((x k).toInt : ℝ) : EReal))
      - Ideal.ofBits .f32 0x40000000#32 * (∑ k, (((x k).toInt : ℝ) : EReal) * (((z k).toInt : ℝ) : EReal))
      + ∑ k, (((z k).toInt : ℝ) : EReal) * (((z k).toInt : ℝ) : EReal) = (R : EReal) := by
    rw [Lit.two, hR]
    simp only [Fin.sum_univ_three, ← EReal.coe_mul, ← EReal.coe_add, ← EReal.coe_sub]
    congr 1; ring
  have hr : Ideal.ofBits .f32 0x00000000#32
      + ∑ k, (((x k - z k).toInt : ℝ) : EReal) * (((x k - z k).toInt : ℝ) : EReal) = (R : EReal) := by
    rw [Lit.zero, zero_add, hR]
    simp only [hsub, Fin.sum_univ_three, ← EReal.coe_mul, ← EReal.coe_add]
  have hroot : Ideal.sqrt (R : EReal) = ((Real.sqrt R : ℝ) : EReal) := by
    rw [Ideal.sqrt_coe, if_neg (not_lt.mpr hR0)]
  constructor
  · unfold kDist rDist
    rw [hk, hr, Lit.zero, max_eq_left (by exact_mod_cast hR0 : (0 : EReal) ≤ (R : EReal))]
  · refine ⟨max (Real.sqrt R) Lit.tenth, ?_, ?_⟩
    · unfold rDist
      rw [hr, hroot, Lit.tenth_eq]
      exact (EReal.coe_strictMono.monotone.map_max).symm
    · refine max_le ?_ Lit.tenth_le_fill
      refine le_trans ?_ Lit.thousand_le_fill
      rw [Real.sqrt_le_left (by norm_num)]
      exact hR1

end Cert.SparseAttn.Row

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibMinReduce.lean ====
/-
  A float minimum over ONE axis, read at the extended reals: at each reduced index it is the fold of `min`, from the
  accumulator's value, over that axis's coordinates (the reduced index with the coordinate put back). The twin of the
  library's statement for a maximum over one axis.
-/
import Idealize.ShloMosaic.PureOps.Ideal.Laws

namespace Cert.MinReduce

open Idealize.ShloMosaic

/-- A float `vector.multi_reduction <minimumf>` over one axis, read at `Ideal`: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.MinReduce
-- ==== Proof.KernelPieces.lean ====
/-
  The kernel's body, piece by piece, read at the entry `(p, q)` of a block: row `p` of the 4096 clusters a grid point
  holds against centroid `q` of the 256.

  * The loads: column 0 of the cluster block and row 0 of the transposed centroid table are the batch numbers; columns
    1..3 and rows 1..3 are the voxel coordinates.
  * The mask at `(p, q)`: the batch of cluster `p` equals the batch of centroid `q`.
  * The distance at `(p, q)`: the row's squared norm minus twice the inner product plus the column's squared norm
    (three-term sums over the coordinate axis: two lane sums and one matrix product), clamped, rooted, floored.
  * The weights: along row `p`, the least masked distance folds over the 256 centroids, and the weight of `q` is the
    masked exponential of the row law; the row sum adds the 256 weights.
  * The stored value: the inner product of the two feature rows (a 64-term sum) times weight over row sum, clipped,
    and `-∞` outside the batch.
-/
import proofs.«179808_j82454782149366_2_alg».proof.Proof.Gen.KernelIdeal.Frame
import proofs.«179808_j82454782149366_2_alg».proof.Proof.RowLaw
import proofs.«179808_j82454782149366_2_alg».proof.Proof.LibKeepdims
import proofs.«179808_j82454782149366_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.SparseAttn.KPieces

open Idealize.ShloMosaic Idealize.ShloMosaic.ValueIdx Cert.KernelIdeal Cert.KernelIdeal.Gen

/-! ## The loads -/

/-- The batch column of a cluster block. -/
theorem ld_clusterBatch (x0 : Vec Ideal S4096x4 .i32) (p : Fin 4096) (u : Fin 1) :
    View.ld x0 r0_0 (ix2 p u) = x0 (ix2 p (0 : Fin 4)) := by
  show x0 (r0_0.idx (ix2 p u)) = _
  refine congrArg x0 (funext fun a => Fin.ext ?_)
  match a with
  | ⟨0, _⟩ => show 0 + 1 * p.val = p.val; omega
  | ⟨1, _⟩ => show 0 + 1 * u.val = 0; omega

/-- The batch row of the transposed centroid table. -/
theorem ld_centroidBatch (x2 : Vec Ideal S4x256 .i32) (u : Fin 1) (q : Fin 256) :
    View.ld x2 r0_1 (ix2 u q) = x2 (ix2 (0 : Fin 4) q) := by
  show x2 (r0_1.idx (ix2 u q)) = _
  refine congrArg x2 (funext fun a => Fin.ext ?_)
  match a with
  | ⟨0, _⟩ => show 0 + 1 * u.val = 0; omega
  | ⟨1, _⟩ => show 0 + 1 * q.val = q.val; omega

/-- Coordinate `k` of cluster `p`: column `k + 1` of the block. -/
theorem ld_clusterXyz (x0 : Vec Ideal S4096x4 .i32) (p : Fin 4096) (k : Fin 3) :
    View.ld x0 r0_2 (ix2 p k) = x0 (ix2 p (k.succ : Fin 4)) := by
  show x0 (r0_2.idx (ix2 p k)) = _
  refine congrArg x0 (funext fun a => Fin.ext ?_)
  match a with
  | ⟨0, _⟩ => show 0 + 1 * p.val = p.val; omega
  | ⟨1, _⟩ => show 1 + 1 * k.val = k.val + 1; omega

/-- Coordinate `k` of centroid `q`: row `k + 1` of the transposed table. -/
theorem ld_centroidXyz (x2 : Vec Ideal S4x256 .i32) (k : Fin 3) (q : Fin 256) :
    View.ld x2 r0_3 (ix2 k q) = x2 (ix2 (k.succ : Fin 4) q) := by
  show x2 (r0_3.idx (ix2 k q)) = _
  refine congrArg x2 (funext fun a => Fin.ext ?_)
  match a with
  | ⟨0, _⟩ => show 1 + 1 * k.val = k.val + 1; omega
  | ⟨1, _⟩ => show 0 + 1 * q.val = q.val; omega

/-! ## The mask -/

theorem mask_apply (v0 : Vec Ideal S4096x1 .i32) (v1 : Vec Ideal S1x256 .i32) (p : Fin 4096) (q : Fin 256) :
    k0_pay2 (F := Ideal) v0 v1 (ix2 p q) = IntOp.cmpi .eq (v0 (ix2 p (0 : Fin 1))) (v1 (ix2 (0 : Fin 1) q)) := by
  unfold k0_pay2
  show IntOp.cmpi .eq (broadcastTo S4096x256 v0 broadcasts_S4096x1_S4096x256 (ix2 p q))
      (broadcastTo S4096x256 (shapeCast S1x256 v1 shapeCasts_S1x256_S1x256) broadcasts_S1x256_S4096x256 (ix2 p q)) = _
  refine congr (congrArg _ ?_) ?_
  · exact Cert.Keepdims.broadcastTo_a1_ab_apply v0 _ p q
  · refine (broadcastTo_1b_ab_apply _ _ p q).trans ?_
    rw [shapeCast_self]

/-! ## The two matrix products -/

theorem xyzDot_lhs0 (i : S4096x256.Idx) (c : dot_S4096x3_S3x256_S4096x256_1_0_0_1_n_n.contr.Idx) : (dot_S4096x3_S3x256_S4096x256_1_0_0_1_n_n.lhsIdx i c 0).val = (i 0).val := by
  unfold DotDims.lhsIdx
  rw [dif_neg (show ¬(0 : Fin S4096x3.rank) ∈ dot_S4096x3_S3x256_S4096x256_1_0_0_1_n_n.lhsBatch by decide), dif_pos (show (0 : Fin S4096x3.rank) ∈ dot_S4096x3_S3x256_S4096x256_1_0_0_1_n_n.lhsNonContracting by decide)]
  rfl

theorem xyzDot_rhs1 (i : S4096x256.Idx) (c : dot_S4096x3_S3x256_S4096x256_1_0_0_1_n_n.contr.Idx) : (dot_S4096x3_S3x256_S4096x256_1_0_0_1_n_n.rhsIdx i c 1).val = (i 1).val := by
  unfold DotDims.rhsIdx
  rw [dif_neg (show ¬(1 : Fin S3x256.rank) ∈ dot_S4096x3_S3x256_S4096x256_1_0_0_1_n_n.rhsBatch by decide), dif_pos (show (1 : Fin S3x256.rank) ∈ dot_S4096x3_S3x256_S4096x256_1_0_0_1_n_n.rhsNonContracting by decide)]
  rfl

/-- The product into a zero accumulator, at `(p, q)`: the 3-term sum of row `p` of the left against column `q` of the right. -/
theorem xyzDot_apply (l : FVec Ideal S4096x3 .f32) (r : FVec Ideal S3x256 .f32) (p : Fin 4096) (q : Fin 256) :
    matmul dot_S4096x3_S3x256_S4096x256_1_0_0_1_n_n (some .fp32) l r (constant (F := Ideal) S4096x256 .f32 0x00000000#32) (ix2 p q)
      = ∑ k : Fin 3, l (ix2 p k) * r (ix2 k q) := by
  simp only [matmul]
  rw [Ideal.matmul_constant_zero_apply, ← Equiv.sum_comp (contrEquiv1 dot_S4096x3_S3x256_S4096x256_1_0_0_1_n_n 3 rfl rfl).symm]
  refine Finset.sum_congr rfl fun k _ => ?_
  have hk := contrEquiv1_symm_val dot_S4096x3_S3x256_S4096x256_1_0_0_1_n_n 3 rfl rfl k
  have el : dot_S4096x3_S3x256_S4096x256_1_0_0_1_n_n.lhsIdx (ix2 p q) ((contrEquiv1 dot_S4096x3_S3x256_S4096x256_1_0_0_1_n_n 3 rfl rfl).symm k) = ix2 p k := funext fun a => Fin.ext (by
    match a with
    | ⟨0, _⟩ => exact xyzDot_lhs0 _ _
    | ⟨1, _⟩ => exact (dot_S4096x3_S3x256_S4096x256_1_0_0_1_n_n.lhsIdx_val_of_single rfl _ _).trans hk)
  have er : dot_S4096x3_S3x256_S4096x256_1_0_0_1_n_n.rhsIdx (ix2 p q) ((contrEquiv1 dot_S4096x3_S3x256_S4096x256_1_0_0_1_n_n 3 rfl rfl).symm k) = ix2 k q := funext fun a => Fin.ext (by
    match a with
    | ⟨0, _⟩ => exact (dot_S4096x3_S3x256_S4096x256_1_0_0_1_n_n.rhsIdx_val_of_single rfl _ _).trans hk
    | ⟨1, _⟩ => exact xyzDot_rhs1 _ _)
  rw [el, er]

theorem featDot_lhs0 (i : S4096x256.Idx) (c : dot_S4096x64_S64x256_S4096x256_1_0_0_1_n_n.contr.Idx) : (dot_S4096x64_S64x256_S4096x256_1_0_0_1_n_n.lhsIdx i c 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl

theorem featDot_rhs1 (i : S4096x256.Idx) (c : dot_S4096x64_S64x256_S4096x256_1_0_0_1_n_n.contr.Idx) : (dot_S4096x64_S64x256_S4096x256_1_0_0_1_n_n.rhsIdx i c 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The product into a zero accumulator, at `(p, q)`: the 64-term sum of row `p` of the left against column `q` of the right. -/
theorem featDot_apply (l : FVec Ideal S4096x64 .bf16) (r : FVec Ideal S64x256 .bf16) (p : Fin 4096) (q : Fin 256) :
    matmul dot_S4096x64_S64x256_S4096x256_1_0_0_1_n_n none l r (constant (F := Ideal) S4096x256 .f32 0x00000000#32) (ix2 p q)
      = ∑ k : Fin 64, l (ix2 p k) * r (ix2 k q) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k := funext fun a => Fin.ext (by
    match a with
    | ⟨0, _⟩ => exact featDot_lhs0 _ _
    | ⟨1, _⟩ => exact (dot_S4096x64_S64x256_S4096x256_1_0_0_1_n_n.lhsIdx_val_of_single rfl _ _).trans hk)
  have er : dot_S4096x64_S64x256_S4096x256_1_0_0_1_n_n.rhsIdx (ix2 p q) ((contrEquiv1 dot_S4096x64_S64x256_S4096x256_1_0_0_1_n_n 64 rfl rfl).symm k) = ix2 k q := funext fun a => Fin.ext (by
    match a with
    | ⟨0, _⟩ => exact (dot_S4096x64_S64x256_S4096x256_1_0_0_1_n_n.rhsIdx_val_of_single rfl _ _).trans hk
    | ⟨1, _⟩ => exact featDot_rhs1 _ _)
  rw [el, er]

/-! ## Sums and the minimum along a row or a column, kept and broadcast back -/

/-- The lane sum of a cluster block's three coordinates, kept as a column and broadcast along the row. -/
theorem rowSum3_apply (v : FVec Ideal S4096x3 .f32) (p : Fin 4096) (q : Fin 256) :
    broadcastTo S4096x256 (shapeCast S4096x1 (multiReduction .add [1] S4096 v 0x00000000#32 reduces_S4096x3_S4096 (.inl rfl) rfl)
      shapeCasts_S4096_S4096x1) broadcasts_S4096x1_S4096x256 (ix2 p q) = ∑ k : Fin 3, v (ix2 p k) := by
  refine (Cert.Keepdims.broadcastTo_a1_ab_apply _ _ p q).trans ?_
  refine (Cert.Keepdims.shapeCast_a_a1_apply _ _ p 0).trans ?_
  refine (Ideal.multiReduction_add_single v _ reduces_S4096x3_S4096 _ _ (ix1 p)).trans ?_
  refine Finset.sum_congr rfl fun k _ => congrArg v (funext fun a => Fin.ext ?_)
  match a with
  | ⟨0, _⟩ => rfl
  | ⟨1, _⟩ => rfl

/-- The sum down the three coordinate rows of the centroid table, kept as a row and broadcast down the columns. -/
theorem colSum3_apply (v : FVec Ideal S3x256 .f32) (p : Fin 4096) (q : Fin 256) :
    broadcastTo S4096x256 (shapeCast S1x256 (multiReduction .add [0] S256 v 0x00000000#32 reduces_S3x256_S256 (.inl rfl) rfl)
      shapeCasts_S256_S1x256) broadcasts_S1x256_S4096x256 (ix2 p q) = ∑ k : Fin 3, v (ix2 k q) := by
  refine (broadcastTo_1b_ab_apply _ _ p q).trans ?_
  refine (shapeCast_a_1a_apply _ _ 0 q).trans ?_
  refine (Ideal.multiReduction_add_single v _ reduces_S3x256_S256 _ _ (ix1 q)).trans ?_
  refine Finset.sum_congr rfl fun k _ => congrArg v (funext fun a => Fin.ext ?_)
  match a with
  | ⟨0, _⟩ => rfl
  | ⟨1, _⟩ => rfl

/-- The lane sum of a row of 256 weights, kept as a column and broadcast along the row. -/
theorem rowSum256_apply (g : FVec Ideal S4096x256 .f32) (p : Fin 4096) (q : Fin 256) :
    broadcastTo S4096x256 (shapeCast S4096x1 (multiReduction .add [1] S4096 g 0x00000000#32 reduces_S4096x256_S4096 (.inl rfl) rfl)
      shapeCasts_S4096_S4096x1) broadcasts_S4096x1_S4096x256 (ix2 p q) = ∑ j : Fin 256, g (ix2 p j) := by
  refine (Cert.Keepdims.broadcastTo_a1_ab_apply _ _ p q).trans ?_
  refine (Cert.Keepdims.shapeCast_a_a1_apply _ _ p 0).trans ?_
  refine (Ideal.multiReduction_add_single g _ reduces_S4096x256_S4096 _ _ (ix1 p)).trans ?_
  refine Finset.sum_congr rfl fun j _ => congrArg g (funext fun a => Fin.ext ?_)
  match a with
  | ⟨0, _⟩ => rfl
  | ⟨1, _⟩ => rfl

/-- The lane minimum of a row of 256 entries, folded from `+∞`, kept as a column and broadcast along the row. -/
theorem rowMin256_apply (g : FVec Ideal S4096x256 .f32) (p : Fin 4096) (q : Fin 256) :
    broadcastTo S4096x256 (shapeCast S4096x1 (multiReduction .minimumf [1] S4096 g 0x7F800000#32 reduces_S4096x256_S4096 (.inl rfl) rfl)
      shapeCasts_S4096_S4096x1) broadcasts_S4096x1_S4096x256 (ix2 p q)
      = (Finset.univ : Finset (Fin 256)).fold min (Ideal.ofBits .f32 0x7F800000#32) (fun j => g (ix2 p j)) := by
  refine (Cert.Keepdims.broadcastTo_a1_ab_apply _ _ p q).trans ?_
  refine (Cert.Keepdims.shapeCast_a_a1_apply _ _ p 0).trans ?_
  refine (Cert.MinReduce.multiReduction_minimumf_single g _ reduces_S4096x256_S4096 _ _ (ix1 p)).trans ?_
  show Finset.fold min (Ideal.ofBits .f32 0x7F800000#32) (fun j : Fin 256 => g (reduces_S4096x256_S4096.lift (ix1 p) j)) Finset.univ = _
  refine congrArg (fun f => Finset.fold min (Ideal.ofBits .f32 0x7F800000#32) f (Finset.univ : Finset (Fin 256)))
    (funext fun j => congrArg g (funext fun a => Fin.ext ?_))
  match a with
  | ⟨0, _⟩ => rfl
  | ⟨1, _⟩ => rfl

/-! ## The distance block -/

/-- The distances of a block: from the cluster coordinates `v6` and the centroid coordinates `v9` (as integers), the
    kernel's chain down to the floored root. -/
def dists (v6 : Vec Ideal S4096x3 .i32) (v9 : IVec S3x256 32) : FVec Ideal S4096x256 .f32 :=
  have v7 : FVec Ideal S4096x3 .f32 := sitofp .f32 v6
  have v10 : FVec Ideal S3x256 .f32 := sitofp .f32 v9
  have v11 : FVec Ideal S4096x3 .f32 := mulf v7 v7
  have v12 : FVec Ideal S4096 .f32 := multiReduction .add [1] S4096 v11 0x00000000#32 reduces_S4096x3_S4096 (.inl rfl) rfl
  have v13 : FVec Ideal S4096x1 .f32 := shapeCast S4096x1 v12 shapeCasts_S4096_S4096x1
  have v14 : FVec Ideal S3x256 .f32 := mulf v10 v10
  have v15 : FVec Ideal S256 .f32 := multiReduction .add [0] S256 v14 0x00000000#32 reduces_S3x256_S256 (.inl rfl) rfl
  have v16 : FVec Ideal S1x256 .f32 := shapeCast S1x256 v15 shapeCasts_S256_S1x256
  have cst_7 : FVec Ideal S4096x256 .f32 := constant S4096x256 .f32 0x00000000#32
  have v17 : FVec Ideal S4096x256 .f32 := matmul dot_S4096x3_S3x256_S4096x256_1_0_0_1_n_n (some .fp32) v7 v10 cst_7
  have cst_8 : Ideal .f32 := Scalar.ofBits .f32 0x40000000#32
  have v18 : FVec Ideal S4096x256 .f32 := broadcast S4096x256 cst_8
  have v19 : FVec Ideal S4096x256 .f32 := mulf v18 v17
  have v20 : FVec Ideal S4096x256 .f32 := broadcastTo S4096x256 v13 broadcasts_S4096x1_S4096x256
  have v21 : FVec Ideal S4096x256 .f32 := subf v20 v19
  have v22 : FVec Ideal S4096x256 .f32 := broadcastTo S4096x256 v16 broadcasts_S1x256_S4096x256
  have v23 : FVec Ideal S4096x256 .f32 := addf v21 v22
  have cst_9 : Ideal .f32 := Scalar.ofBits .f32 0x00000000#32
  have v24 : FVec Ideal S4096x256 .f32 := broadcast S4096x256 cst_9
  have v25 : FVec Ideal S4096x256 .f32 := maximumf v23 v24
  have v26 : FVec Ideal S4096x256 .f32 := sqrt v25
  have cst_10 : Ideal .f32 := Scalar.ofBits .f32 0x3DCCCCCD#32
  have v27 : FVec Ideal S4096x256 .f32 := broadcast S4096x256 cst_10
  have v28 : FVec Ideal S4096x256 .f32 := maximumf v26 v27
  v28

/-- Three equal parts make equal distances. -/
theorem dist_congr {X Y Z X' Y' Z' : EReal} (hX : X = X') (hY : Y = Y') (hZ : Z = Z') :
    max (Ideal.sqrt (max (X - Ideal.ofBits .f32 0x40000000#32 * Y + Z) (Ideal.ofBits .f32 0x00000000#32)))
        (Ideal.ofBits .f32 0x3DCCCCCD#32)
      = max (Ideal.sqrt (max (X' - Ideal.ofBits .f32 0x40000000#32 * Y' + Z') (Ideal.ofBits .f32 0x00000000#32)))
        (Ideal.ofBits .f32 0x3DCCCCCD#32) := by
  rw [hX, hY, hZ]

/-- The distance at `(p, q)` is the row law's, of cluster `p`'s and centroid `q`'s coordinates read as reals. -/
theorem dists_apply (v6 : Vec Ideal S4096x3 .i32) (v9 : IVec S3x256 32) (p : Fin 4096) (q : Fin 256) :
    dists v6 v9 (ix2 p q)
      = Row.kDist (fun k => (((v6 (ix2 p k)).toInt : ℝ) : EReal)) (fun k => (((v9 (ix2 k q)).toInt : ℝ) : EReal)) :=
  dist_congr (rowSum3_apply _ p q) (xyzDot_apply _ _ p q) (colSum3_apply _ p q)

/-! ## The weights and their row sum -/

/-- The exponential of a vector, read at an index. -/
theorem vexp_apply {sh : Shape} {φ : FTy} (x : FVec Ideal sh φ) (i : sh.Idx) : exp x i = Ideal.exp (x i) := rfl

/-- The least entry of each row of a block, folded from `+∞`, broadcast back along the rows. -/
def rowMins (g : FVec Ideal S4096x256 .f32) : FVec Ideal S4096x256 .f32 :=
  broadcastTo S4096x256 (shapeCast S4096x1 (multiReduction .minimumf [1] S4096 g 0x7F800000#32 reduces_S4096x256_S4096 (.inl rfl) rfl)
    shapeCasts_S4096_S4096x1) broadcasts_S4096x1_S4096x256

theorem rowMins_apply (g : FVec Ideal S4096x256 .f32) (p : Fin 4096) (q : Fin 256) :
    rowMins g (ix2 p q)
      = (Finset.univ : Finset (Fin 256)).fold min (Ideal.ofBits .f32 0x7F800000#32) (fun j => g (ix2 p j)) :=
  rowMin256_apply g p q

/-- The weights of a block from its mask and its distances: the kernel's chain from the masked minimum to the gated
    exponential. -/
def weights (s : IVec S4096x256 1) (d : FVec Ideal S4096x256 .f32) : FVec Ideal S4096x256 .f32 :=
  select s (exp (subf (rowMins (select s d (broadcast S4096x256 (Scalar.ofBits (F := Ideal) .f32 0x7149F2CA#32)))) d))
    (broadcast S4096x256 (Scalar.ofBits (F := Ideal) .f32 0x00000000#32))

/-- The weight at `(p, q)` is the row law's masked exponential over row `p` of the mask and of the distances. -/
theorem weights_apply (s : IVec S4096x256 1) (d : FVec Ideal S4096x256 .f32) (p : Fin 4096) (q : Fin 256) :
    weights s d (ix2 p q) = Row.kWeight (fun j => s (ix2 p j)) (fun j => d (ix2 p j)) q := by
  unfold weights
  rw [select_apply, vexp_apply, subf_apply, rowMins_apply, broadcast_apply]
  rfl

/-- The row sums of a block of weights, broadcast back along the rows. -/
def rowSums (g : FVec Ideal S4096x256 .f32) : FVec Ideal S4096x256 .f32 :=
  broadcastTo S4096x256 (shapeCast S4096x1 (multiReduction .add [1] S4096 g 0x00000000#32 reduces_S4096x256_S4096 (.inl rfl) rfl)
    shapeCasts_S4096_S4096x1) broadcasts_S4096x1_S4096x256

/-- The payload of the masked exponentials is `weights` of the mask payload and the distance block. -/
theorem pay3_eq (v0 : Vec Ideal S4096x1 .i32) (v1 : Vec Ideal S1x256 .i32) (v6 : Vec Ideal S4096x3 .i32) (v8 : Vec Ideal S3x256 .i32) :
    k0_pay3 (F := Ideal) v0 v1 v6 v8
      = weights (k0_pay2 (F := Ideal) v0 v1) (dists v6 (shapeCast S3x256 v8 shapeCasts_S3x256_S3x256)) := rfl

/-- The payload of the row sums is `rowSums` of the masked exponentials. -/
theorem pay4_eq (v0 : Vec Ideal S4096x1 .i32) (v1 : Vec Ideal S1x256 .i32) (v6 : Vec Ideal S4096x3 .i32) (v8 : Vec Ideal S3x256 .i32) :
    k0_pay4 (F := Ideal) v0 v1 v6 v8 = rowSums (k0_pay3 (F := Ideal) v0 v1 v6 v8) := rfl

/-! ## The stored value -/

/-- Equal parts make equal stored values. -/
theorem stored_congr {c : BitVec 1} {R A N R' A' N' : EReal} (hR : R = R') (hA : A = A') (hN : N = N') :
    Scalar.select c (min (Ideal.ofBits .f32 0x41200000#32) (max (Ideal.ofBits .f32 0xC1200000#32) (R * Ideal.div A N)))
        (Ideal.ofBits .f32 0xFF800000#32)
      = Scalar.select c (min (Ideal.ofBits .f32 0x41200000#32) (max (Ideal.ofBits .f32 0xC1200000#32) (R' * Ideal.div A' N')))
        (Ideal.ofBits .f32 0xFF800000#32) := by
  rw [hR, hA, hN]

/-- The stored value at `(p, q)`, from the mask, the weights, the row sums and the two feature blocks. -/
theorem pay1_apply (v5 : IVec S4096x256 1) (v37 v40 : FVec Ideal S4096x256 .f32) (v42 : Vec Ideal S4096x64 .f32)
    (v44 : Vec Ideal S64x256 .f32) (p : Fin 4096) (q : Fin 256) :
    k0_pay1 (F := Ideal) v5 v37 v40 v42 v44 (ix2 p q)
      = Scalar.select (v5 (ix2 p q))
          (min (Ideal.ofBits .f32 0x41200000#32) (max (Ideal.ofBits .f32 0xC1200000#32)
            ((∑ k : Fin 64, v42 (ix2 p k) * shapeCast S64x256 v44 shapeCasts_S64x256_S64x256 (ix2 k q))
              * Ideal.div (v37 (ix2 p q)) (v40 (ix2 p q)))))
          (Ideal.ofBits .f32 0xFF800000#32) :=
  stored_congr (featDot_apply _ _ p q) rfl rfl

end Cert.SparseAttn.KPieces

end
-- ==== Proof.KernelRow.lean ====
/-
  What the kernel's body leaves in the output block of a grid point, at the entry `(p, q)`: the row law's kernel row
  of cluster `p` of the block, at centroid `q` — from the four input blocks alone (the cluster coordinates and
  features of the point, the transposed centroid coordinates and features, which every point holds whole).
-/
import proofs.«179808_j82454782149366_2_alg».proof.Proof.KernelPieces

set_option maxRecDepth 16384

noncomputable section

namespace Cert.SparseAttn.KRow

open Idealize.ShloMosaic Idealize.ShloMosaic.ValueIdx Cert.KernelIdeal Cert.KernelIdeal.Gen Cert.SparseAttn.KPieces

/-- Is centroid `j` in the batch of cluster `p` of the block. -/
def blockSame (x0 : Vec Ideal S4096x4 .i32) (x2 : Vec Ideal S4x256 .i32) (p : Fin 4096) (j : Fin 256) : BitVec 1 :=
  IntOp.cmpi .eq (x0 (ix2 p (0 : Fin 4))) (x2 (ix2 (0 : Fin 4) j))

/-- The kernel's distance from cluster `p` of the block to centroid `j`. -/
def blockDist (x0 : Vec Ideal S4096x4 .i32) (x2 : Vec Ideal S4x256 .i32) (p : Fin 4096) (j : Fin 256) : EReal :=
  Row.kDist (fun k => (((x0 (ix2 p (k.succ : Fin 4))).toInt : ℝ) : EReal))
    (fun k => (((x2 (ix2 (k.succ : Fin 4) j)).toInt : ℝ) : EReal))

/-- The inner product of the feature row of cluster `p` of the block with the feature column of centroid `j`. -/
def blockRaw (x1 : Vec Ideal S4096x64 .f32) (x3 : Vec Ideal S64x256 .f32) (p : Fin 4096) (j : Fin 256) : EReal :=
  ∑ k : Fin 64, x1 (ix2 p k) * x3 (ix2 k j)

/-- The stored value over a mask and a distance block: the row law's kernel row of row `p`. -/
theorem stored_row (s : IVec S4096x256 1) (d : FVec Ideal S4096x256 .f32) (v42 : Vec Ideal S4096x64 .f32)
    (v44 : Vec Ideal S64x256 .f32) (p : Fin 4096) (q : Fin 256) :
    k0_pay1 (F := Ideal) s (weights s d) (rowSums (weights s d)) v42 v44 (ix2 p q)
      = Row.kOut (fun j => s (ix2 p j)) (fun j => d (ix2 p j))
          (fun j => ∑ k : Fin 64, v42 (ix2 p k) * shapeCast S64x256 v44 shapeCasts_S64x256_S64x256 (ix2 k j)) q := by
  rw [pay1_apply]
  unfold rowSums
  rw [rowSum256_apply, weights_apply]
  unfold Row.kOut
  simp only [weights_apply]

/-- The body's output block at `(p, q)`. -/
theorem out_apply (x0 : Vec Ideal S4096x4 .i32) (x1 : Vec Ideal S4096x64 .f32) (x2 : Vec Ideal S4x256 .i32)
    (x3 : Vec Ideal S64x256 .f32) (p : Fin 4096) (q : Fin 256) :
    out0_4 (F := Ideal) x0 x1 x2 x3 (ix2 p q)
      = Row.kOut (blockSame x0 x2 p) (blockDist x0 x2 p) (blockRaw x1 x3 p) q := by
  have hz : (![0, 0] : Fin 2 → Nat) = fun _ => 0 := funext fun a => by fin_cases a <;> rfl
  have hs : (fun j => k0_pay2 (F := Ideal) (View.ld x0 r0_0) (View.ld x2 r0_1) (ix2 p j)) = blockSame x0 x2 p :=
    funext fun j => by
      rw [mask_apply, ld_clusterBatch, ld_centroidBatch]; rfl
  have hd : (fun j => dists (View.ld x0 r0_2) (shapeCast S3x256 (View.ld x2 r0_3) shapeCasts_S3x256_S3x256) (ix2 p j))
      = blockDist x0 x2 p := funext fun j => by
    rw [dists_apply]
    unfold blockDist
    refine congr (congrArg Row.kDist (funext fun k => ?_)) (funext fun k => ?_)
    · exact congrArg (fun b : BitVec 32 => ((b.toInt : ℝ) : EReal)) (ld_clusterXyz x0 p k)
    · exact congrArg (fun b : BitVec 32 => ((b.toInt : ℝ) : EReal))
        ((congrFun (shapeCast_self (s := S3x256) _ shapeCasts_S3x256_S3x256) (ix2 k j)).trans (ld_centroidXyz x2 k j))
  have hr : (fun j => ∑ k : Fin 64, View.ld x1 r0_4 (ix2 p k)
      * shapeCast S64x256 (View.ld x3 r0_5) shapeCasts_S64x256_S64x256 (ix2 k j)) = blockRaw x1 x3 p := funext fun j => by
    unfold blockRaw
    refine Finset.sum_congr rfl fun k _ => ?_
    refine congr (congrArg _ ?_) ?_
    · exact congrFun (View.ld_unit_zero (S := S4096x64) hz _ x1) (ix2 p k)
    · exact (congrFun (shapeCast_self (s := S64x256) _ shapeCasts_S64x256_S64x256) (ix2 k j)).trans
        (congrFun (View.ld_unit_zero (S := S64x256) hz _ x3) (ix2 k j))
  unfold out0_4
  rw [View.canon_unit_zero hz, pay4_eq, pay3_eq, stored_row, hs, hd, hr]

end Cert.SparseAttn.KRow

end
-- ==== Proof.KernelArray.lean ====
/-
  From blocks to the array. The grid has 32 points; point `t` holds clusters `4096 t … 4096 t + 4095` (their
  coordinates and features) and, whole, the two transposed centroid tables the host operations wrote before the
  region. What point `t` writes back is block `t` of ONE function of the four arrays — the row law's kernel row of
  cluster `r`, at centroid `q` —, the 32 blocks cover the result array, so the array ends holding that function.
-/
import proofs.«179808_j82454782149366_2_alg».proof.Proof.Gen.KernelIdeal.Value
import proofs.«179808_j82454782149366_2_alg».proof.Proof.KernelRow
import Idealize.ShloMosaic.Lib.StableHlo.Run
import Idealize.ShloMosaic.Lib.Pipeline.Value

set_option maxRecDepth 16384

noncomputable section

namespace Cert.SparseAttn.KArray

open Idealize.ShloMosaic Idealize.ShloMosaic.ValueIdx Idealize.ShloMosaic.TcCoe Idealize.SL.Sem
open Cert.KernelIdeal Cert.KernelIdeal.Gen
open Idealize.ShloMosaic.Pipeline (Dat)

/-! ## The whole-array function -/

/-- The kernel's row of cluster `r`: from the cluster tables and the TRANSPOSED centroid tables. -/
def rowOf (cc : Vec Ideal S131072x4 .i32) (cf : Vec Ideal S131072x64 .f32) (zcT : Vec Ideal S4x256 .i32)
    (zfT : Vec Ideal S64x256 .f32) (r : Fin 131072) : Fin 256 → EReal :=
  Row.kOut (fun j => IntOp.cmpi .eq (cc (ix2 r (0 : Fin 4))) (zcT (ix2 (0 : Fin 4) j)))
    (fun j => Row.kDist (fun k => (((cc (ix2 r (k.succ : Fin 4))).toInt : ℝ) : EReal))
      (fun k => (((zcT (ix2 (k.succ : Fin 4) j)).toInt : ℝ) : EReal)))
    (fun j => ∑ k : Fin 64, cf (ix2 r k) * zfT (ix2 k j))

/-- The result array as one function of the four arrays the region finds. -/
def G (cc : Vec Ideal S131072x4 .i32) (cf : Vec Ideal S131072x64 .f32) (zcT : Vec Ideal S4x256 .i32)
    (zfT : Vec Ideal S64x256 .f32) : Vec Ideal S131072x256 .f32 :=
  fun i => rowOf cc cf zcT zfT (i 0) (i 1)

/-- A block whose cluster rows are rows of the arrays and whose centroid tables are the arrays' computes, at `(p, q)`,
    the whole-array function at `(r, q)`. -/
theorem block_eq (cc : Vec Ideal S131072x4 .i32) (cf : Vec Ideal S131072x64 .f32) (zcT : Vec Ideal S4x256 .i32)
    (zfT : Vec Ideal S64x256 .f32) (x0 : Vec Ideal S4096x4 .i32) (x1 : Vec Ideal S4096x64 .f32)
    (x2 : Vec Ideal S4x256 .i32) (x3 : Vec Ideal S64x256 .f32) (p : Fin 4096) (q : Fin 256) (r : Fin 131072)
    (h0 : ∀ a : Fin 4, x0 (ix2 p a) = cc (ix2 r a)) (h1 : ∀ k : Fin 64, x1 (ix2 p k) = cf (ix2 r k))
    (h2 : x2 = zcT) (h3 : x3 = zfT) :
    out0_4 (F := Ideal) x0 x1 x2 x3 (ix2 p q) = G cc cf zcT zfT (ix2 r q) := by
  subst h2 h3
  rw [KRow.out_apply]
  show Row.kOut (KRow.blockSame x0 x2 p) (KRow.blockDist x0 x2 p) (KRow.blockRaw x1 x3 p) q = rowOf cc cf x2 x3 r q
  unfold KRow.blockSame KRow.blockDist KRow.blockRaw rowOf
  simp only [h0, h1]

variable (m : (ℓ : Loc nD τ sig) → Buf (Elt Ideal) ℓ) (ρ : Dev nD → PrngReg)

/-! ## The windows' blocks -/

/-- The index maps over the grid: windows 0, 1 and 4 move down the rows with the point; windows 2 and 3 stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem iblk0_apply (c : Dev nD) (t : Fin cfg0.N) (p : Fin 4096) (a : Fin 4) (r : Fin 131072)
    (hr : r.val = t.val * 4096 + p.val) :
    (iblk m c 0 t : Vec Ideal S4096x4 .i32) (ix2 p a) = (V m c main_arg0 : Vec Ideal S131072x4 .i32) (ix2 r a) := by
  obtain ⟨e0, e1, -⟩ := idx_facts t
  unfold iblk
  rw [View.read_apply]
  show V m c main_arg0 _ = V m c main_arg0 _
  congr 1
  funext b
  apply Fin.ext
  match b with
  | ⟨0, _⟩ => show win0_0.index t (0 : Fin 2) * 4096 + 1 * p.val = r.val; rw [e0, hr]; omega
  | ⟨1, _⟩ => show win0_0.index t (1 : Fin 2) * 4 + 1 * a.val = a.val; rw [e1]; omega

theorem iblk1_apply (c : Dev nD) (t : Fin cfg0.N) (p : Fin 4096) (k : Fin 64) (r : Fin 131072)
    (hr : r.val = t.val * 4096 + p.val) :
    (iblk m c 1 t : Vec Ideal S4096x64 .f32) (ix2 p k) = (V m c main_arg1 : Vec Ideal S131072x64 .f32) (ix2 r k) := by
  obtain ⟨-, -, e0, e1, -⟩ := idx_facts t
  unfold iblk
  rw [View.read_apply]
  show V m c main_arg1 _ = V m c main_arg1 _
  congr 1
  funext b
  apply Fin.ext
  match b with
  | ⟨0, _⟩ => show win0_1.index t (0 : Fin 2) * 4096 + 1 * p.val = r.val; rw [e0, hr]; omega
  | ⟨1, _⟩ => show win0_1.index t (1 : Fin 2) * 64 + 1 * k.val = k.val; rw [e1]; omega

theorem iblk2_eq (c : Dev nD) (t : Fin cfg0.N) :
    (iblk m c 2 t : Vec Ideal S4x256 .i32) = (V m c main_v0 : Vec Ideal S4x256 .i32) := by
  obtain ⟨-, -, -, -, e0, e1, -⟩ := idx_facts t
  funext y
  unfold iblk
  rw [View.read_apply]
  show V m c main_v0 _ = V m c main_v0 _
  congr 1
  funext b
  apply Fin.ext
  match b with
  | ⟨0, _⟩ => show win0_2.index t (0 : Fin 2) * 4 + 1 * (y 0).val = (y 0).val; rw [e0]; omega
  | ⟨1, _⟩ => show win0_2.index t (1 : Fin 2) * 256 + 1 * (y 1).val = (y 1).val; rw [e1]; omega

theorem iblk3_eq (c : Dev nD) (t : Fin cfg0.N) :
    (iblk m c 3 t : Vec Ideal S64x256 .f32) = (V m c main_v1 : Vec Ideal S64x256 .f32) := by
  obtain ⟨-, -, -, -, -, -, e0, e1, -⟩ := idx_facts t
  funext y
  unfold iblk
  rw [View.read_apply]
  show V m c main_v1 _ = V m c main_v1 _
  congr 1
  funext b
  apply Fin.ext
  match b with
  | ⟨0, _⟩ => show win0_3.index t (0 : Fin 2) * 64 + 1 * (y 0).val = (y 0).val; rw [e0]; omega
  | ⟨1, _⟩ => show win0_3.index t (1 : Fin 2) * 256 + 1 * (y 1).val = (y 1).val; rw [e1]; omega

/-! ## What a point writes back, the cover, the array -/

/-- The result array as the region's arrays give it. -/
def result (c : Dev nD) : Vec Ideal S131072x256 .f32 :=
  G (V m c main_arg0) (V m c main_arg1) (V m c main_v0) (V m c main_v1)

/-- What point `t` writes back is block `t` of `result`. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_facts t
  rw [Cert.KernelIdeal.Value.flushed4]
  funext y
  obtain ⟨p, q, rfl⟩ : ∃ (p : Fin 4096) (q : Fin 256), y = ix2 p q := ⟨y 0, y 1, eq_ix2 y⟩
  have hlt : t.val * 4096 + p.val < 131072 := by
    have := t.isLt; have hN : cfg0.N = 32 := N_0; have := p.isLt; omega
  show out0_4 (F := Ideal) (iblk m c 0 t) (iblk m c 1 t) (iblk m c 2 t) (iblk m c 3 t) (ix2 p q)
    = result m c (((cfg0.win 4).blk t).view.emb (ix2 p q))
  have he : ((cfg0.win 4).blk t).view.emb (ix2 p q) = (ix2 (⟨t.val * 4096 + p.val, hlt⟩ : Fin 131072) q : S131072x256.Idx) := by
    funext b
    apply Fin.ext
    match b with
    | ⟨0, _⟩ => show win0_4.index t (0 : Fin 2) * 4096 + 1 * p.val = t.val * 4096 + p.val; rw [e0]; omega
    | ⟨1, _⟩ => show win0_4.index t (1 : Fin 2) * 256 + 1 * q.val = q.val; rw [e1]; omega
  rw [he]
  exact block_eq _ _ _ _ _ _ _ _ p q ⟨t.val * 4096 + p.val, hlt⟩
    (fun a => iblk0_apply m c t p a _ rfl) (fun k => iblk1_apply m c t p k _ rfl) (iblk2_eq m c t) (iblk3_eq m c t)

/-- An index of the result array is in point `t`'s block iff its row is among the point's 4096. -/
theorem mem_blk (t : Fin cfg0.N) (i : S131072x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v2).slice (win0_4.rect t)).set ↔ _
  rw [View.set_slice_whole, Rect.mem_set_unit]
  exact Iff.rfl

/-- The array after the run is `result`: the 32 blocks cover it. -/
theorem final (c : Dev nD) : (dats m 0 c).arrAt 4 cfg0.N = result m c :=
  (dats m 0 c).arrAt_eq_of_cover 4 (result m c) (fun t _ => flushed_eq m c t) fun i => by
    have hi0 : (i 0).val < 131072 := (i 0).isLt
    have hi1 : (i 1).val < 256 := (i 1).isLt
    have hN : cfg0.N = 32 := N_0
    let t : Fin cfg0.N := ⟨(i 0).val / 4096, by rw [hN]; omega⟩
    obtain ⟨-, -, -, -, -, -, -, -, e0, e1⟩ := idx_facts t
    refine ⟨t, flush0_4 t, ?_⟩
    rw [mem_blk]
    intro a
    match a with
    | ⟨0, _⟩ =>
      show win0_4.index t (0 : Fin 2) * 4096 ≤ (i 0).val ∧ (i 0).val < win0_4.index t (0 : Fin 2) * 4096 + 4096
      rw [e0]; show (i 0).val / 4096 * 4096 ≤ (i 0).val ∧ (i 0).val < (i 0).val / 4096 * 4096 + 4096; omega
    | ⟨1, _⟩ =>
      show win0_4.index t (1 : Fin 2) * 256 ≤ (i 1).val ∧ (i 1).val < win0_4.index t (1 : Fin 2) * 256 + 256
      rw [e1]; omega

/-! ## The arrays the region finds -/

/-- The host operations before the region transpose the two centroid tables. -/
theorem V_centroidCoordsT (c : Dev nD) :
    (V m c main_v0 : Vec Ideal S4x256 .i32)
      = transpose S4x256 [1, 0] (m ((c : Thread nD τ).loc main_arg2) : Vec Ideal S256x4 .i32) transposes_S256x4_S4x256_1_0 := by
  dsimp only [Gen.V, Gen.hostOps0]; after_results

theorem V_centroidFeatsT (c : Dev nD) :
    (V m c main_v1 : Vec Ideal S64x256 .f32)
      = transpose S64x256 [1, 0] (m ((c : Thread nD τ).loc main_arg3) : Vec Ideal S256x64 .f32) transposes_S256x64_S64x256_1_0 := by
  dsimp only [Gen.V, Gen.hostOps0]; after_results

/-- The result array as a function of the argument arrays as launched. -/
def resultOfArgs (c : Dev nD) : Vec Ideal S131072x256 .f32 :=
  G (m ((c : Thread nD τ).loc main_arg0)) (m ((c : Thread nD τ).loc main_arg1))
    (transpose S4x256 [1, 0] (m ((c : Thread nD τ).loc main_arg2) : Vec Ideal S256x4 .i32) transposes_S256x4_S4x256_1_0)
    (transpose S64x256 [1, 0] (m ((c : Thread nD τ).loc main_arg3) : Vec Ideal S256x64 .f32) transposes_S256x64_S64x256_1_0)

theorem result_eq (c : Dev nD) : result m c = resultOfArgs m c := by
  unfold result resultOfArgs
  rw [V_main_arg0, V_main_arg1, V_centroidCoordsT, V_centroidFeatsT]

/-- The kernel's run, read: the result array at `resultOfArgs`, the arguments unchanged. -/
theorem run : θ_run defs (onTc (τ := τ) (main (F := Ideal))) ⟨m, fun _ => 0, ρ⟩ fun r => ∀ c : Dev nD,
      r.2.mem ((c : Thread nD τ).loc main_v2) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (result_eq m c), (h c).2⟩)
    (Cert.KernelIdeal.Value.run_blocks m ρ)

end Cert.SparseAttn.KArray

end
-- ==== Proof.RefRow.lean ====
/-
  The reference's last stage, read at the entry `(r, q)` of the result — cluster `r` of the 131072 against centroid
  `q` of the 256 — in the row law's vocabulary: the batch bit, the 32-bit coordinate differences and their distance,
  the logits and their maximum along the row, the exponentials and their sum, the 64-term inner product of the
  feature rows, and the clipped, masked product. Every stage but the row maximum is read by the generated index
  lemmas; the maximum is the fold of `max` from `-∞` over the row's 256 logits.
-/
import proofs.«179808_j82454782149366_2_alg».proof.Proof.Gen.ReferenceIdeal.Read
import proofs.«179808_j82454782149366_2_alg».proof.Proof.RowLaw
import Idealize.ShloMosaic.Lib.ValueIdx
import Idealize.ShloMosaic.PureOps.Ideal.Laws

set_option maxRecDepth 16384

noncomputable section

namespace Cert.SparseAttn.RRow

open Idealize.ShloMosaic Idealize.ShloMosaic.ValueIdx Cert.ReferenceIdeal Cert.ReferenceIdeal.Gen Cert.ReferenceIdeal.Read

abbrev ClusterCoords := (⟨S131072x4, .i32⟩ : BufTy).Contents (Elt Ideal)
abbrev ClusterFeats := (⟨S131072x64, .f32⟩ : BufTy).Contents (Elt Ideal)
abbrev CentroidCoords := (⟨S256x4, .i32⟩ : BufTy).Contents (Elt Ideal)
abbrev CentroidFeats := (⟨S256x64, .f32⟩ : BufTy).Contents (Elt Ideal)

/-- Is centroid `j` in cluster `r`'s batch: column 0 of the two coordinate tables compared. -/
def sameBatch (x0 : ClusterCoords) (x2 : CentroidCoords) (r : Fin 131072) (j : Fin 256) : BitVec 1 :=
  IntOp.cmpi .eq (x0 (ix2 r (0 : Fin 4))) (x2 (ix2 j (0 : Fin 4)))

/-- The reference's distance from cluster `r` to centroid `j`: columns 1..3 of the two tables. -/
def distance (x0 : ClusterCoords) (x2 : CentroidCoords) (r : Fin 131072) (j : Fin 256) : EReal :=
  Row.rDist (fun k => x0 (ix2 r (k.succ : Fin 4))) (fun k => x2 (ix2 j (k.succ : Fin 4)))

/-- The inner product of cluster `r`'s and centroid `j`'s feature rows. -/
def rawScore (x1 : ClusterFeats) (x3 : CentroidFeats) (r : Fin 131072) (j : Fin 256) : EReal :=
  ∑ k : Fin 64, x1 (ix2 r k) * x3 (ix2 j k)

theorem mask_apply (x0 : ClusterCoords) (x2 : CentroidCoords) (r : Fin 131072) (q : Fin 256) :
    val_main_v8 (F := Ideal) x0 x2 (ix2 r q) = sameBatch x0 x2 r q := by
  rw [val_main_v8_apply, val_main_v6_apply, val_main_v2_apply, val_main_v1_apply, val_main_v0_apply,
    val_main_v7_apply, val_main_v5_apply, val_main_v4_apply, val_main_v3_apply]
  unfold sameBatch
  refine congr (congrArg _ (congrArg x0 (funext fun a => Fin.ext ?_))) (congrArg x2 (funext fun a => Fin.ext ?_))
  · match a with
    | ⟨0, _⟩ => show r.val / 1 = r.val; omega
    | ⟨1, _⟩ => rfl
  · match a with
    | ⟨0, _⟩ => show q.val / 1 = q.val; omega
    | ⟨1, _⟩ => rfl

/-- One coordinate difference, taken in 32 bits and then read as a real. -/
theorem diff_apply (x0 : ClusterCoords) (x2 : CentroidCoords) (r : Fin 131072) (q : Fin 256) (k : Fin 3) :
    val_main_v16 (F := Ideal) x0 x2 (ix3 r q k)
      = (((x0 (ix2 r (k.succ : Fin 4)) - x2 (ix2 q (k.succ : Fin 4))).toInt : ℝ) : EReal) := by
  rw [val_main_v16_apply, val_main_v15_apply, val_main_v13_apply, val_main_v10_apply, val_main_v9_apply,
    val_main_v14_apply, val_main_v12_apply, val_main_v11_apply]
  have e0 : idx_main_v9 (idx_main_v10 (idx_main_v13 (ix3 r q k))) = ix2 r (k.succ : Fin 4) := funext fun a => Fin.ext (by
    match a with
    | ⟨0, _⟩ => rfl
    | ⟨1, _⟩ => show 1 + k.val = k.val + 1; omega)
  have e2 : idx_main_v11 (idx_main_v12 (idx_main_v14 (ix3 r q k))) = ix2 q (k.succ : Fin 4) := funext fun a => Fin.ext (by
    match a with
    | ⟨0, _⟩ => rfl
    | ⟨1, _⟩ => show 1 + k.val = k.val + 1; omega)
  rw [e0, e2]
  rfl

theorem dist_apply (x0 : ClusterCoords) (x2 : CentroidCoords) (r : Fin 131072) (q : Fin 256) :
    val_main_v21 (F := Ideal) x0 x2 (ix2 r q) = distance x0 x2 r q := by
  rw [val_main_v21_apply, val_main_v19_apply, val_main_v18_apply, val_main_v20_apply, val_main_cst_0_apply, val_main_cst_apply]
  unfold distance Row.rDist
  show max (Ideal.sqrt (Ideal.ofBits .f32 0x00000000#32
      + ∑ k : Fin 3, val_main_v17 (F := Ideal) x0 x2 (idx_main_v18 (ix2 r q) k))) (Ideal.ofBits .f32 0x3DCCCCCD#32) = _
  refine congrArg (fun S => max (Ideal.sqrt (Ideal.ofBits .f32 0x00000000#32 + S)) (Ideal.ofBits .f32 0x3DCCCCCD#32))
    (Finset.sum_congr rfl fun k _ => ?_)
  have e : idx_main_v18 (ix2 r q) k = ix3 r q k := funext fun a => Fin.ext (by
    match a with
    | ⟨0, _⟩ => rfl
    | ⟨1, _⟩ => rfl
    | ⟨2, _⟩ => rfl)
  rw [e, val_main_v17_apply, diff_apply]
  rfl

theorem logit_apply (x0 : ClusterCoords) (x2 : CentroidCoords) (r : Fin 131072) (q : Fin 256) :
    val_main_v23 (F := Ideal) x0 x2 (ix2 r q) = Row.rLogit (sameBatch x0 x2 r) (distance x0 x2 r) q := by
  rw [val_main_v23_apply, mask_apply, val_main_v22_apply, dist_apply, val_main_call0_v1_apply, val_main_call0_v0_apply,
    val_main_cst_1_apply]
  rfl

/-- The row maximum: the fold of `max` from `-∞` over the row's logits, compared once more with `-∞`. -/
theorem rowMax_apply (x0 : ClusterCoords) (x2 : CentroidCoords) (r : Fin 131072) :
    val_main_v26 (F := Ideal) x0 x2 (ix1 r) = Row.rMax (sameBatch x0 x2 r) (distance x0 x2 r) := by
  have hR : S131072x256.Reduces [1] S131072 := by decide
  rw [val_main_v26_apply, val_main_v25_apply, val_main_cst_3_apply]
  unfold Row.rMax
  refine congrArg (max (Ideal.ofBits .f32 0xFF800000#32)) ?_
  unfold val_main_v24
  refine (Host.reduce_eq_fold_single (FloatOps.maximumf (F := Ideal) (φ := .f32)) (val_main_v23 (F := Ideal) x0 x2)
    (val_main_cst_2 (F := Ideal)) reducesTo_S131072x256_S131072_d1 hR h_S_ (ix1 r)).trans ?_
  show Finset.fold max (Ideal.ofBits .f32 0xFF800000#32)
    (fun j : Fin 256 => val_main_v23 (F := Ideal) x0 x2 (hR.lift (ix1 r) j)) Finset.univ = _
  refine congrArg (fun f => Finset.fold max (Ideal.ofBits .f32 0xFF800000#32) f (Finset.univ : Finset (Fin 256)))
    (funext fun j => ?_)
  rw [← logit_apply]
  exact congrArg _ (funext fun a => Fin.ext (by
    match a with
    | ⟨0, _⟩ => rfl
    | ⟨1, _⟩ => rfl))

theorem exp_apply (x0 : ClusterCoords) (x2 : CentroidCoords) (r : Fin 131072) (q : Fin 256) :
    val_main_v30 (F := Ideal) x0 x2 (ix2 r q) = Row.rExp (sameBatch x0 x2 r) (distance x0 x2 r) q := by
  have e : idx_main_v27 (idx_main_v28 (ix2 r q)) = ix1 r := funext fun a => Fin.ext (by
    match a with
    | ⟨0, _⟩ => rfl)
  rw [val_main_v30_apply, val_main_v29_apply, logit_apply, val_main_v28_apply, val_main_v27_apply, e, rowMax_apply]
  rfl

theorem rowSum_apply (x0 : ClusterCoords) (x2 : CentroidCoords) (r : Fin 131072) (q : Fin 256) :
    val_main_v33 (F := Ideal) x0 x2 (ix2 r q)
      = Ideal.ofBits .f32 0x00000000#32 + ∑ j : Fin 256, Row.rExp (sameBatch x0 x2 r) (distance x0 x2 r) j := by
  have e : idx_main_v32 (idx_main_v33 (ix2 r q)) = ix1 r := funext fun a => Fin.ext (by
    match a with
    | ⟨0, _⟩ => rfl)
  rw [val_main_v33_apply, val_main_v32_apply, e, val_main_v31_apply, val_main_cst_4_apply]
  refine congrArg (Ideal.ofBits .f32 0x00000000#32 + ·) (Finset.sum_congr rfl fun j _ => ?_)
  have e' : idx_main_v31 (ix1 r) j = ix2 r j := funext fun a => Fin.ext (by
    match a with
    | ⟨0, _⟩ => rfl
    | ⟨1, _⟩ => rfl)
  rw [e', exp_apply]

theorem raw_apply (x1 : ClusterFeats) (x3 : CentroidFeats) (r : Fin 131072) (q : Fin 256) :
    val_main_v36 (F := Ideal) x1 x3 (ix2 r q) = rawScore x1 x3 r q := by
  rw [val_main_v36_apply]
  unfold rawScore
  refine Finset.sum_congr rfl fun k _ => ?_
  rw [val_main_v35_apply]
  refine congr (congrArg _ (congrArg x1 (funext fun a => Fin.ext ?_))) (congrArg x3 (funext fun a => Fin.ext ?_))
  · match a with
    | ⟨0, _⟩ => rfl
    | ⟨1, _⟩ => rfl
  · match a with
    | ⟨0, _⟩ => rfl
    | ⟨1, _⟩ => rfl

/-- The reference's result at `(r, q)` is the row law's reference row of cluster `r`, at `q`. -/
theorem out_apply (x0 : ClusterCoords) (x1 : ClusterFeats) (x2 : CentroidCoords) (x3 : CentroidFeats)
    (r : Fin 131072) (q : Fin 256) :
    val_main_v39 (F := Ideal) x0 x1 x2 x3 (ix2 r q)
      = Row.rOut (sameBatch x0 x2 r) (distance x0 x2 r) (rawScore x1 x3 r) q := by
  rw [val_main_v39_apply, val_main_v38_apply, val_main_call1_v2_apply, val_main_v37_apply, val_main_v34_apply, mask_apply,
    raw_apply, exp_apply, rowSum_apply, val_main_call1_v4_apply, val_main_call1_v3_apply, val_main_cst_6_apply,
    val_main_call1_v1_apply, val_main_call1_v0_apply, val_main_cst_5_apply, val_main_call2_v1_apply,
    val_main_call2_v0_apply, val_main_cst_7_apply]
  rfl

end Cert.SparseAttn.RRow

end
-- ==== Proof.Bridge.lean ====
/-
  The two programs compute one array. At the entry `(r, q)` the kernel's array holds the row law's kernel row of
  cluster `r` — read through the transposed centroid tables, which at `(k, j)` hold the tables at `(j, k)` — and the
  reference's last stage holds the row law's reference row. When the xyz columns of both coordinate tables are voxel
  coordinates the two distances are one real number at most the fill, so the rows agree entry by entry.
-/
import proofs.«179808_j82454782149366_2_alg».proof.Proof.KernelArray
import proofs.«179808_j82454782149366_2_alg».proof.Proof.RefRow
import Idealize.ShloMosaic.Lib.ValueLayout

set_option maxRecDepth 16384

noncomputable section

namespace Cert.SparseAttn.Bridge

open Idealize.ShloMosaic Idealize.ShloMosaic.ValueIdx

theorem result_eq_ref (cc : RRow.ClusterCoords) (cf : RRow.ClusterFeats) (zc : RRow.CentroidCoords) (zf : RRow.CentroidFeats)
    (hT : Cert.KernelIdeal.S256x4.Transposes [1, 0] Cert.KernelIdeal.S4x256)
    (hT' : Cert.KernelIdeal.S256x64.Transposes [1, 0] Cert.KernelIdeal.S64x256)
    (hc : ∀ (r : Fin 131072) (k : Fin 3), Row.InRange (cc (ix2 r (k.succ : Fin 4))))
    (hz : ∀ (j : Fin 256) (k : Fin 3), Row.InRange (zc (ix2 j (k.succ : Fin 4)))) :
    KArray.G cc cf (transpose Cert.KernelIdeal.S4x256 [1, 0] zc hT) (transpose Cert.KernelIdeal.S64x256 [1, 0] zf hT')
      = Cert.ReferenceIdeal.Read.val_main_v39 (F := Ideal) cc cf zc zf := by
  funext i
  obtain ⟨r, q, rfl⟩ : ∃ (r : Fin 131072) (q : Fin 256), i = ix2 r q := ⟨i 0, i 1, eq_ix2 i⟩
  rw [RRow.out_apply]
  show KArray.rowOf cc cf _ _ r q = _
  unfold KArray.rowOf
  have hT0 : ∀ (a : Fin 4) (j : Fin 256), transpose Cert.KernelIdeal.S4x256 [1, 0] zc hT (ix2 a j) = zc (ix2 j a) :=
    fun a j => transpose_ix2_apply zc hT a j
  have hT1 : ∀ (k : Fin 64) (j : Fin 256), transpose Cert.KernelIdeal.S64x256 [1, 0] zf hT' (ix2 k j) = zf (ix2 j k) :=
    fun k j => transpose_ix2_apply zf hT' k j
  simp only [hT0, hT1]
  have hd : (fun j : Fin 256 => Row.kDist (fun k => (((cc (ix2 r (k.succ : Fin 4))).toInt : ℝ) : EReal))
      (fun k => (((zc (ix2 j (k.succ : Fin 4))).toInt : ℝ) : EReal))) = RRow.distance cc zc r :=
    funext fun j => (Row.dist_eq _ _ (hc r) (hz j)).1
  rw [hd]
  exact congrFun (Row.out_eq (RRow.sameBatch cc zc r) (RRow.distance cc zc r) (RRow.rawScore cf zf r)
    (fun j => (Row.dist_eq _ _ (hc r) (hz j)).2)) q

end Cert.SparseAttn.Bridge

end
-- ==== Proof.PreRange.lean ====
/-
  What the precondition gives about the two coordinate tables: every xyz entry (columns 1..3) of the cluster table and
  of the centroid table is a voxel coordinate, a 32-bit integer in `[0, 128)`. The precondition is one bit, the
  conjunction of four `all`s; the last two are the conjunctions, over every xyz entry of a table, of `0 ≤ x` and
  `x < 128` as signed comparisons. (The first two say the feature tables are finite; the value law does not need them.)
-/
import proofs.«179808_j82454782149366_2_alg».proof.Pre_finite_inputs
import proofs.«179808_j82454782149366_2_alg».proof.Proof.Gen.Pre_finite_inputs
import proofs.«179808_j82454782149366_2_alg».proof.Proof.RowLaw
import Idealize.ShloMosaic.Lib.ReduceAll
import Idealize.ShloMosaic.Lib.Affine
import Idealize.ShloMosaic.Lib.ValueIdx
import Idealize.ShloMosaic.Lib.Pipeline.Value

set_option maxRecDepth 16384

noncomputable section

namespace Cert.SparseAttn.PreRange

open Idealize.ShloMosaic Idealize.ShloMosaic.ValueIdx Cert.Pre_finite_inputs

variable [Facts]
open Facts

instance : Subsingleton S_.Idx := ⟨fun a b => funext fun d => d.elim0⟩

/-- A signed `0 ≤ x` and `x < 128`, both true, say `x` is a voxel coordinate. -/
theorem inRange_of_bits {x : BitVec 32} (h : IntOp.andi (IntOp.cmpi .sge x 0#32) (IntOp.cmpi .slt x 128#32) = 1#1) :
    Row.InRange x := by
  obtain ⟨h1, h2⟩ := IntOp.andi_eq_one.mp h
  have e1 := IntOp.cmpi_sge.mp h1
  have e2 := IntOp.cmpi_slt.mp h2
  rw [show (0#32 : BitVec 32).toInt = 0 from by decide] at e1
  rw [show (128#32 : BitVec 32).toInt = 128 from by decide] at e2
  exact ⟨e1, e2⟩

/-- Under the precondition every xyz entry of both coordinate tables is a voxel coordinate. -/
theorem range_of_pre {F : FTy → Type} [FloatOps F] (a0 : IVec S131072x4 32) (a1 : FVec F S131072x64 .f32)
    (a2 : IVec S256x4 32) (a3 : FVec F S256x64 .f32) (h : fn (F := F) a0 a1 a2 a3 = fun _ => 1#1) :
    (∀ (r : Fin 131072) (k : Fin 3), Row.InRange (a0 (ix2 r (k.succ : Fin 4))))
      ∧ (∀ (j : Fin 256) (k : Fin 3), Row.InRange (a2 (ix2 j (k.succ : Fin 4)))) := by
  have h0 : fn (F := F) a0 a1 a2 a3 ix0 = 1#1 := congrFun h ix0
  dsimp only [fn, fn_part1] at h0
  obtain ⟨h1, h25⟩ := IntOp.andi_eq_one.mp h0
  obtain ⟨_, h16⟩ := IntOp.andi_eq_one.mp h1
  constructor
  · intro r k
    have e := Host.reduce_andi_all _ _ _ _ ix0 h16 (ix2 r k)
    have es : extractStridedSlice S131072x3 ![0, 1] a0 slices_S131072x4_S131072x3_0_1 (ix2 r k) = a0 (ix2 r (k.succ : Fin 4)) :=
      extractStridedSlice_apply ![0, 1] a0 slices_S131072x4_S131072x3_0_1 (ix2 r k) (ix2 r (k.succ : Fin 4)) (fun a => by
        match a with
        | ⟨0, _⟩ => show r.val = 0 + r.val; omega
        | ⟨1, _⟩ => show k.val + 1 = 1 + k.val; omega)
    rw [← es]
    exact inRange_of_bits e
  · intro j k
    have e := Host.reduce_andi_all _ _ _ _ ix0 h25 (ix2 j k)
    have es : extractStridedSlice S256x3 ![0, 1] a2 slices_S256x4_S256x3_0_1 (ix2 j k) = a2 (ix2 j (k.succ : Fin 4)) :=
      extractStridedSlice_apply ![0, 1] a2 slices_S256x4_S256x3_0_1 (ix2 j k) (ix2 j (k.succ : Fin 4)) (fun a => by
        match a with
        | ⟨0, _⟩ => show j.val = 0 + j.val; omega
        | ⟨1, _⟩ => show k.val + 1 = 1 + k.val; omega)
    rw [← es]
    exact inRange_of_bits e

end Cert.SparseAttn.PreRange

end
-- ==== Proof.lean ====
/-
  The certificate of the sparse-attention kernel against its jnp reference, at the extended reals.

  For cluster `r` and centroid `q` both programs return `-∞` when the two are in different batches and otherwise
  `clip (⟨f_r, g_q⟩ · w_rq, -10, 10)`, where `w_r` is the softmax, over the centroids of `r`'s batch, of minus the
  distance `d_rq = max (‖x_r - z_q‖, 0.1)` between their voxel coordinates.

  * The kernel expands `‖x - z‖² = ‖x‖² - 2⟨x, z⟩ + ‖z‖²` on coordinates read as reals; the reference subtracts the
    coordinates as 32-bit integers first. For voxel coordinates in `[0, 128)` — the precondition's last two
    conjuncts — the integer difference does not wrap and the two squares are one real number.
  * The kernel shifts the exponentials by the least distance of the batch, found by masking with `1e30`; the
    reference by the greatest negated distance, found by masking with `-∞`. These are the same shift because every
    distance is far below `1e30`, so the weights, their sums and the quotients agree; outside the batch both write
    `-∞` over whatever the quotient was.
  * Sums may be taken in any order and a change of float format is the identity at the extended reals, so the
    kernel's lane sums and matrix products are the reference's sums.

  The three frames are the generated ones (the reference's is its generated run with the result dropped), the
  idealization rewrote nothing, and the value claim joins the kernel's array (each grid point writes a block of 4096
  rows of one whole-array function, and the 32 blocks cover it) to the reference's last stage read index by index.
-/
import proofs.«179808_j82454782149366_2_alg».proof.Defs
import proofs.«179808_j82454782149366_2_alg».proof.Proof.Gen.Kernel
import proofs.«179808_j82454782149366_2_alg».proof.Proof.Gen.Kernel.Skeleton
import proofs.«179808_j82454782149366_2_alg».proof.Proof.Gen.Kernel.Launch
import proofs.«179808_j82454782149366_2_alg».proof.Proof.Gen.Kernel.Points
import proofs.«179808_j82454782149366_2_alg».proof.Proof.Gen.Kernel.Frame
import proofs.«179808_j82454782149366_2_alg».proof.Proof.Gen.KernelIdeal
import proofs.«179808_j82454782149366_2_alg».proof.Proof.Gen.KernelIdeal.Skeleton
import proofs.«179808_j82454782149366_2_alg».proof.Proof.Gen.KernelIdeal.Launch
import proofs.«179808_j82454782149366_2_alg».proof.Proof.Gen.KernelIdeal.Points
import proofs.«179808_j82454782149366_2_alg».proof.Proof.Gen.KernelIdeal.Frame
import proofs.«179808_j82454782149366_2_alg».proof.Proof.Gen.ReferenceIdeal
import proofs.«179808_j82454782149366_2_alg».proof.Proof.Gen.Pre_finite_inputs
import proofs.«179808_j82454782149366_2_alg».proof.Proof.Gen.KernelIdeal.Value
import proofs.«179808_j82454782149366_2_alg».proof.Proof.Gen.ReferenceIdeal.Run
import proofs.«179808_j82454782149366_2_alg».proof.Proof.Gen.ReferenceIdeal.Read
import proofs.«179808_j82454782149366_2_alg».proof.Proof.Bridge
import proofs.«179808_j82454782149366_2_alg».proof.Proof.PreRange
import Idealize.ShloMosaic.Adequacy
import Idealize.ShloMosaic.Init

noncomputable section

namespace Cert.Proof

open Idealize.ShloMosaic Idealize.SL.Sem Cert.SparseAttn

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The kernel's array after its run and the reference's result after its run, from memories agreeing on the arguments,
    are one array: the kernel's whole-array function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => KArray.resultOfArgs m c, KArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2]
  obtain ⟨hc, hz⟩ := PreRange.range_of_pre _ _ _ _ (hpre c)
  exact (Bridge.result_eq_ref _ _ _ _ _ _ hc hz).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
